-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x256x2048 : Shape := ⟨3, ![16, 256, 2048]⟩
abbrev S16x2048x4096 : Shape := ⟨3, ![16, 2048, 4096]⟩
abbrev S16x4096 : Shape := ⟨2, ![16, 4096]⟩
abbrev S_ : Shape := ⟨0, ![]⟩

class Facts : Prop where
  bcast_S_S16x256x2048 : S_.BroadcastsInDim S16x256x2048 (![] : Fin 0 → Fin S16x256x2048.rank)
  reducesTo_S16x256x2048_S_d0_1_2 : S16x256x2048.ReducesTo [0, 1, 2] S_
  h_S_ : 0 < S_.numel
  bcast_S_S16x2048x4096 : S_.BroadcastsInDim S16x2048x4096 (![] : Fin 0 → Fin S16x2048x4096.rank)
  reducesTo_S16x2048x4096_S_d0_1_2 : S16x2048x4096.ReducesTo [0, 1, 2] S_
  bcast_S_S16x4096 : S_.BroadcastsInDim S16x4096 (![] : Fin 0 → Fin S16x4096.rank)
  reducesTo_S16x4096_S_d0_1 : S16x4096.ReducesTo [0, 1] S_

variable [Facts]

def fn_part1 {F : FTy → Type} [FloatOps F] (main_v13 : IVec S_ 1) (main_v15 : IVec S16x4096 1) (main_c_5 : IVec S_ 1) : IVec S_ 1 :=
  let main_v16 : IVec S_ 1 := (fun x v => Host.reduce IntOp.andi x v reducesTo_S16x4096_S_d0_1 h_S_) main_v15 main_c_5
  let main_v17 : IVec S_ 1 := andi main_v13 main_v16
  main_v17

def fn {F : FTy → Type} [FloatOps F] (main_arg0 : FVec F S16x256x2048 .f32) (main_arg1 : FVec F S16x2048x4096 .f32) (main_arg2 : FVec F S16x4096 .f32) : IVec S_ 1 :=
  let main_v0 : FVec F S16x256x2048 .f32 := Host.absf main_arg0
  let main_cst : FVec F S_ .f32 := constant S_ .f32 0x7F800000#32
  let main_v1 : FVec F S16x256x2048 .f32 := broadcastInDim S16x256x2048 ![] bcast_S_S16x256x2048 main_cst
  let main_v2 : IVec S16x256x2048 1 := cmpf .olt main_v0 main_v1
  let main_c : IVec S_ 1 := constantI S_ 1 1#1
  let main_v3 : IVec S_ 1 := (fun x v => Host.reduce IntOp.andi x v reducesTo_S16x256x2048_S_d0_1_2 h_S_) main_v2 main_c
  let main_v4 : FVec F S16x2048x4096 .f32 := Host.absf main_arg1
  let main_cst_0 : FVec F S_ .f32 := constant S_ .f32 0x7F800000#32
  let main_v5 : FVec F S16x2048x4096 .f32 := broadcastInDim S16x2048x4096 ![] bcast_S_S16x2048x4096 main_cst_0
  let main_v6 : IVec S16x2048x4096 1 := cmpf .olt main_v4 main_v5
  let main_c_1 : IVec S_ 1 := constantI S_ 1 1#1
  let main_v7 : IVec S_ 1 := (fun x v => Host.reduce IntOp.andi x v reducesTo_S16x2048x4096_S_d0_1_2 h_S_) main_v6 main_c_1
  let main_v8 : IVec S_ 1 := andi main_v3 main_v7
  let main_v9 : FVec F S16x4096 .f32 := Host.absf main_arg2
  let main_cst_2 : FVec F S_ .f32 := constant S_ .f32 0x7F800000#32
  let main_v10 : FVec F S16x4096 .f32 := broadcastInDim S16x4096 ![] bcast_S_S16x4096 main_cst_2
  let main_v11 : IVec S16x4096 1 := cmpf .olt main_v9 main_v10
  let main_c_3 : IVec S_ 1 := constantI S_ 1 1#1
  let main_v12 : IVec S_ 1 := (fun x v => Host.reduce IntOp.andi x v reducesTo_S16x4096_S_d0_1 h_S_) main_v11 main_c_3
  let main_v13 : IVec S_ 1 := andi main_v8 main_v12
  let main_cst_4 : FVec F S_ .f32 := constant S_ .f32 0x00000000#32
  let main_v14 : FVec F S16x4096 .f32 := broadcastInDim S16x4096 ![] bcast_S_S16x4096 main_cst_4
  let main_v15 : IVec S16x4096 1 := cmpf .une main_arg2 main_v14
  let main_c_5 : IVec S_ 1 := constantI S_ 1 1#1
  fn_part1 (F := F) main_v13 main_v15 main_c_5
-- ==== Kernel.lean ====
abbrev S16x256x2048 : Shape := ⟨3, ![16, 256, 2048]⟩
abbrev S16x2048x4096 : Shape := ⟨3, ![16, 2048, 4096]⟩
abbrev S16x4096 : Shape := ⟨2, ![16, 4096]⟩
abbrev S16x1x4096 : Shape := ⟨3, ![16, 1, 4096]⟩
abbrev S16x256x4096 : Shape := ⟨3, ![16, 256, 4096]⟩
abbrev S1x256x2048 : Shape := ⟨3, ![1, 256, 2048]⟩
abbrev S1x2048x1024 : Shape := ⟨3, ![1, 2048, 1024]⟩
abbrev S1x1x1024 : Shape := ⟨3, ![1, 1, 1024]⟩
abbrev S1x256x1024 : Shape := ⟨3, ![1, 256, 1024]⟩
abbrev S256x2048 : Shape := ⟨2, ![256, 2048]⟩
abbrev S2048x1024 : Shape := ⟨2, ![2048, 1024]⟩
abbrev S256x1024 : Shape := ⟨2, ![256, 1024]⟩
abbrev S1x1024 : Shape := ⟨2, ![1, 1024]⟩

abbrev nBuf : Space → Nat
  | .hbm => 5
  | .vmem => 9
  | .smem => 0
  | _ => 0

abbrev bufTy : (tb : Table) → Fin (tcTables nBuf tb) → BufTy
  | .hbm, ⟨0, _⟩ => ⟨S16x256x2048, .f32⟩
  | .hbm, ⟨1, _⟩ => ⟨S16x2048x4096, .f32⟩
  | .hbm, ⟨2, _⟩ => ⟨S16x4096, .f32⟩
  | .hbm, ⟨3, _⟩ => ⟨S16x1x4096, .f32⟩
  | .hbm, ⟨4, _⟩ => ⟨S16x256x4096, .f32⟩
  | .local _ .vmem, ⟨0, _⟩ => ⟨S1x256x2048, .f32⟩
  | .local _ .vmem, ⟨1, _⟩ => ⟨S1x256x2048, .f32⟩
  | .local _ .vmem, ⟨2, _⟩ => ⟨S1x2048x1024, .f32⟩
  | .local _ .vmem, ⟨3, _⟩ => ⟨S1x2048x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x256x1024, .f32⟩
  | .local _ .vmem, ⟨7, _⟩ => ⟨S1x256x1024, .f32⟩
  | .local _ .vmem, ⟨8, _⟩ => ⟨S256x2048, .bf16⟩
  | _, _ => ⟨S16x256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  bcast_S16x4096_S16x1x4096_0_2 : S16x4096.BroadcastsInDim S16x1x4096 (![0, 2] : Fin 2 → Fin S16x1x4096.rank)
  inb_S1x256x2048_S1x256x2048_0_0_0 : ∀ a, (![0, 0, 0] : Fin 3 → Nat) a + S1x256x2048.size a ≤ S1x256x2048.size a
  h_S1x256x2048 : 0 < S1x256x2048.numel
  shapeCasts_S1x256x2048_S256x2048 : S1x256x2048.ShapeCasts S256x2048
  bitsLt_bf16_f32 : FTy.bits .bf16 < FTy.bits .f32
  inb_S256x2048_S256x2048_0_0 : ∀ a, (![0, 0] : Fin 2 → Nat) a + S256x2048.size a ≤ S256x2048.size a
  h_S256x2048 : 0 < S256x2048.numel
  shapeCasts_S256x2048_S256x2048 : S256x2048.ShapeCasts S256x2048
  packedbf16_S256x2048_S256x2048_0_0 : (Rect.unit (s := S256x2048) ![0, 0] S256x2048.size inb_S256x2048_S256x2048_0_0).PackedRows (EltTy.packing .bf16)
  inb_S1x2048x1024_S1x2048x1024_0_0_0 : ∀ a, (![0, 0, 0] : Fin 3 → Nat) a + S1x2048x1024.size a ≤ S1x2048x1024.size a
  h_S1x2048x1024 : 0 < S1x2048x1024.numel
  shapeCasts_S1x2048x1024_S2048x1024 : S1x2048x1024.ShapeCasts S2048x1024
  inb_S1x1x1024_S1x1x1024_0_0_0 : ∀ a, (![0, 0, 0] : Fin 3 → Nat) a + S1x1x1024.size a ≤ S1x1x1024.size a
  h_S1x1x1024 : 0 < S1x1x1024.numel
  shapeCasts_S1x1x1024_S1x1024 : S1x1x1024.ShapeCasts S1x1024
  broadcasts_S1x1024_S256x1024 : S1x1024.Broadcasts S256x1024
  inb_S1x256x1024_S1x256x1024_0_0_0 : ∀ a, (![0, 0, 0] : Fin 3 → Nat) a + S1x256x1024.size a ≤ S1x256x1024.size a
  h_S1x256x1024 : 0 < S1x256x1024.numel
  shapeCasts_S1x256x1024_S256x1024 : S1x256x1024.ShapeCasts S256x1024
  shapeCasts_S256x1024_S1x256x1024 : S256x1024.ShapeCasts S1x256x1024
  dot_S256x2048_S2048x1024_S256x1024_1_0_0_1_n_n_wf : DotDims.WF S256x2048 S2048x1024 S256x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x2048.size a ≤ S16x256x2048.size a
  hwx0_0 : ∀ i : grid0.Coords, EltTy.bits .f32 = 32 ∨ (Rect.block (s := S16x256x2048) S1x256x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x1024.size a ≤ S16x2048x4096.size a
  hwx0_1 : ∀ i : grid0.Coords, EltTy.bits .f32 = 32 ∨ (Rect.block (s := S16x2048x4096) S1x2048x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x1024.size a ≤ S16x1x4096.size a
  hwx0_2 : ∀ i : grid0.Coords, EltTy.bits .f32 = 32 ∨ (Rect.block (s := S16x1x4096) S1x1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x256x1024.size a ≤ S16x256x4096.size a
  hwx0_3 : ∀ i : grid0.Coords, EltTy.bits .f32 = 32 ∨ (Rect.block (s := S16x256x4096) S1x256x1024.size (cc0_transform_3 i) (hinb0_3 i)).WholeWords (EltTy.packing .f32)

variable [Facts₀]

def dot_S256x2048_S2048x1024_S256x1024_1_0_0_1_n_n : DotDims S256x2048 S2048x1024 S256x1024 where
  lhsContracting := [1]
  rhsContracting := [0]
  lhsNonContracting := [0]
  rhsNonContracting := [1]
  lhsBatch := []
  rhsBatch := []
  wf := dot_S256x2048_S2048x1024_S256x1024_1_0_0_1_n_n_wf

abbrev win0_0 : Pipeline.Window sig grid0 :=
  Pipeline.Window.ofSpec (Memref.whole main_arg0) S1x256x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x2048x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x256x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S16x256x2048 : Shape := ⟨3, ![16, 256, 2048]⟩
abbrev S16x2048x4096 : Shape := ⟨3, ![16, 2048, 4096]⟩
abbrev S16x4096 : Shape := ⟨2, ![16, 4096]⟩
abbrev S16x1x4096 : Shape := ⟨3, ![16, 1, 4096]⟩
abbrev S16x256x4096 : Shape := ⟨3, ![16, 256, 4096]⟩

abbrev nBuf : Space → Nat
  | .hbm => 7
  | .vmem => 0
  | .smem => 0
  | _ => 0

abbrev bufTy : (tb : Table) → Fin (tcTables nBuf tb) → BufTy
  | .hbm, ⟨0, _⟩ => ⟨S16x256x2048, .f32⟩
  | .hbm, ⟨1, _⟩ => ⟨S16x2048x4096, .f32⟩
  | .hbm, ⟨2, _⟩ => ⟨S16x4096, .f32⟩
  | .hbm, ⟨3, _⟩ => ⟨S16x1x4096, .f32⟩
  | .hbm, ⟨4, _⟩ => ⟨S16x2048x4096, .f32⟩
  | .hbm, ⟨5, _⟩ => ⟨S16x2048x4096, .f32⟩
  | .hbm, ⟨6, _⟩ => ⟨S16x256x4096, .f32⟩
  | _, _ => ⟨S16x256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]

class Facts₀ : Prop where
  bcast_S16x4096_S16x1x4096_0_2 : S16x4096.BroadcastsInDim S16x1x4096 (![0, 2] : Fin 2 → Fin S16x1x4096.rank)
  bcast_S16x1x4096_S16x2048x4096_0_1_2 : S16x1x4096.BroadcastsInDim S16x2048x4096 (![0, 1, 2] : Fin 3 → Fin S16x2048x4096.rank)
  dot_S16x256x2048_S16x2048x4096_S16x256x4096_2_1_1_2_0_0_wf : DotDims.WF S16x256x2048 S16x2048x4096 S16x256x4096 [2] [1] [1] [2] [0] [0]

variable [Facts₀]

def dot_S16x256x2048_S16x2048x4096_S16x256x4096_2_1_1_2_0_0 : DotDims S16x256x2048 S16x2048x4096 S16x256x4096 where
  lhsContracting := [2]
  rhsContracting := [1]
  lhsNonContracting := [1]
  rhsNonContracting := [2]
  lhsBatch := [0]
  rhsBatch := [0]
  wf := dot_S16x256x2048_S16x2048x4096_S16x256x4096_2_1_1_2_0_0_wf

class Facts : Prop extends Facts₀ where

variable [Facts]
-- ==== Proof.Unpool.lean ====
/-
  Mesh unpooling as one function of its three argument arrays.

  For a batch b, a feature row f and a target column t the result is
      out[b, f, t] = (Σ_e features[b, f, e] · groups[b, e, t]) / occurrences[b, t],
  the sum running over the 2048 source edges e.  One program divides the finished sum, the other
  divides every entry of groups before it sums.  Over the extended reals the two agree as soon as
  every entry is a real number and the divisor is not zero: the quotient by a nonzero real r is the
  product with the real 1/r, and a real factor moves across a finite sum of reals.  (With an infinite
  summand the factor does not move across the sum, and with a zero divisor the quotient of the sum and
  the sum of the quotients differ, so both hypotheses are used.)
-/
import Idealize.ShloMosaic.PureOps.Ideal
import Idealize.ShloMosaic.PureOps.Ideal.Laws
import Idealize.ShloMosaic.Lib.ValueIdx

noncomputable section

namespace Cert.Unpool

open Idealize.ShloMosaic Idealize.ShloMosaic.ValueIdx

/-- features: 16 batches of 256 rows over 2048 source edges. -/
abbrev SFeat : Shape := ⟨3, ![16, 256, 2048]⟩
/-- groups: 16 batches of 2048 source edges by 4096 target columns. -/
abbrev SGrp : Shape := ⟨3, ![16, 2048, 4096]⟩
/-- occurrences: one divisor per batch and target column. -/
abbrev SOcc : Shape := ⟨2, ![16, 4096]⟩
/-- the result: 16 batches of 256 rows by 4096 target columns. -/
abbrev SOut : Shape := ⟨3, ![16, 256, 4096]⟩

/-- The sum over source edges of features times groups, then one division by the column's count. -/
def quotOfSum (feat : SFeat.Idx → EReal) (grp : SGrp.Idx → EReal) (occ : SOcc.Idx → EReal) : SOut.Idx → EReal :=
  fun i => Ideal.div (∑ e : Fin 2048, feat (ix3 (i 0) (i 1) e) * grp (ix3 (i 0) e (i 2))) (occ (ix2 (i 0) (i 2)))

/-- Every entry of groups divided by its column's count first, then the sum over source edges. -/
def sumOfQuot (feat : SFeat.Idx → EReal) (grp : SGrp.Idx → EReal) (occ : SOcc.Idx → EReal) : SOut.Idx → EReal :=
  fun i => ∑ e : Fin 2048, feat (ix3 (i 0) (i 1) e) * Ideal.div (grp (ix3 (i 0) e (i 2))) (occ (ix2 (i 0) (i 2)))

/-- A finite sum of reals, coerced term by term, is the coercion of the real sum. -/
theorem coe_sum {ι : Type} (s : Finset ι) (f : ι → ℝ) :
    (∑ k ∈ s, ((f k : ℝ) : EReal)) = ((∑ k ∈ s, f k : ℝ) : EReal) := by
  classical
  induction s using Finset.induction_on with
  | empty => simp
  | insert a s ha ih => rw [Finset.sum_insert ha, Finset.sum_insert ha, ih, EReal.coe_add]

/-- Over reals, with a nonzero real divisor: the quotient of the sum of products is the sum of the
    products with the quotients. Both sides are the real number (Σ a·g) · (1/r). -/
theorem div_sum_mul_coe {ι : Type} (s : Finset ι) (a g : ι → ℝ) (r : ℝ) (hr : r ≠ 0) :
    Ideal.div (∑ k ∈ s, ((a k : ℝ) : EReal) * ((g k : ℝ) : EReal)) (r : EReal)
      = ∑ k ∈ s, ((a k : ℝ) : EReal) * Ideal.div ((g k : ℝ) : EReal) (r : EReal) := by
  simp only [Ideal.div_coe hr, ← EReal.coe_mul]
  rw [coe_sum, coe_sum, ← EReal.coe_mul, Finset.sum_mul]
  exact congrArg _ (Finset.sum_congr rfl fun k _ => by ring)

/-- The two arrangements are one array when features and groups hold reals and every count is a
    nonzero real. -/
theorem quotOfSum_eq_sumOfQuot (feat : SFeat.Idx → EReal) (grp : SGrp.Idx → EReal) (occ : SOcc.Idx → EReal)
    (hf : ∀ i, ∃ x : ℝ, feat i = (x : EReal)) (hg : ∀ i, ∃ x : ℝ, grp i = (x : EReal))
    (ho : ∀ i, ∃ x : ℝ, x ≠ 0 ∧ occ i = (x : EReal)) :
    quotOfSum feat grp occ = sumOfQuot feat grp occ := by
  choose a ha using hf
  choose g hg' using hg
  choose r hr0 hr using ho
  funext i
  unfold quotOfSum sumOfQuot
  simp only [ha, hg', hr]
  exact div_sum_mul_coe Finset.univ _ _ _ (hr0 _)

end Cert.Unpool

end
-- ==== Proof.RefUnpool.lean ====
/-
  The reference, read at an index.

  The reference broadcasts occurrences along the source-edge axis, divides groups by it entry by
  entry, and contracts features with the quotient over the source edges, batch by batch.  Read at
  (b, f, t) that is Σ_e features[b, f, e] · (groups[b, e, t] / occurrences[b, t]): every entry of
  groups divided first, then the sum.
-/
import proofs.«165463_j7464653160711_2_alg».proof.Proof.Gen.ReferenceIdeal.Read
import proofs.«165463_j7464653160711_2_alg».proof.Proof.Unpool

noncomputable section

namespace Cert.RefUnpool

open Cert.ReferenceIdeal Cert.ReferenceIdeal.Read Idealize.ShloMosaic Idealize.ShloMosaic.ValueIdx Cert.Unpool

/-- The left factor of the contraction at output (b, f, t) and edge e is features at (b, f, e). -/
theorem lidx_eq (i : S16x256x4096.Idx) (e : Fin 2048) : lidx_main_v3 i e = ix3 (i 0) (i 1) e :=
  funext fun a => by match a with | ⟨0, _⟩ => rfl | ⟨1, _⟩ => rfl | ⟨2, _⟩ => rfl

/-- The right factor is the quotient array at (b, e, t). -/
theorem ridx_eq (i : S16x256x4096.Idx) (e : Fin 2048) : ridx_main_v3 i e = ix3 (i 0) e (i 2) :=
  funext fun a => by match a with | ⟨0, _⟩ => rfl | ⟨1, _⟩ => rfl | ⟨2, _⟩ => rfl

/-- The two broadcasts read occurrences at (b, t), whatever the edge. -/
theorem oidx_eq (j : S16x2048x4096.Idx) :
    idx_main_v0 (idx_main_v1 j) = ix2 (j 0) (j 2) :=
  funext fun a => by match a with | ⟨0, _⟩ => rfl | ⟨1, _⟩ => rfl

/-- The reference's result is the sum, over source edges, of features times the quotient of groups by
    the column's count. -/
theorem ref_eq (x0 : (⟨S16x256x2048, .f32⟩ : BufTy).Contents (Elt Ideal)) (x1 : (⟨S16x2048x4096, .f32⟩ : BufTy).Contents (Elt Ideal))
    (x2 : (⟨S16x4096, .f32⟩ : BufTy).Contents (Elt Ideal)) :
    val_main_v3 (F := Ideal) x0 x1 x2 = sumOfQuot x0 x1 x2 := by
  funext i
  rw [val_main_v3_apply]
  unfold sumOfQuot
  refine Finset.sum_congr rfl fun e _ => ?_
  rw [val_main_v2_apply, val_main_v1_apply, val_main_v0_apply, oidx_eq, lidx_eq, ridx_eq]
  rfl

end Cert.RefUnpool

end
-- ==== Proof.BlockValue.lean ====
/-
  What the body computes from its blocks, entry by entry, over the extended reals.

  The body keeps a copy of the features block (256 rows by 2048 source edges) and stores, for the
  block of 1024 target columns it is given, the product of that copy with the groups block
  (2048 source edges by 1024 columns), every entry divided by the column's count.  A change of float
  format is the identity here and the product accumulates into zero, so the stored entry at row f and
  column t is (Σ_e copy[f, e] · groups[e, t]) / count[t].
-/
import proofs.«165463_j7464653160711_2_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.BlockValue

open Cert.KernelIdeal Cert.KernelIdeal.Gen Idealize.ShloMosaic Idealize.ShloMosaic.ValueIdx

/-! ## The block product's operand indices -/

theorem lhs_row (j : S256x1024.Idx) (q : dot_S256x2048_S2048x1024_S256x1024_1_0_0_1_n_n.contr.Idx) :
    (dot_S256x2048_S2048x1024_S256x1024_1_0_0_1_n_n.lhsIdx j q 0).val = (j 0).val := by
  unfold DotDims.lhsIdx
  rw [dif_neg (show ¬(0 : Fin S256x2048.rank) ∈ dot_S256x2048_S2048x1024_S256x1024_1_0_0_1_n_n.lhsBatch by decide),
    dif_pos (show (0 : Fin S256x2048.rank) ∈ dot_S256x2048_S2048x1024_S256x1024_1_0_0_1_n_n.lhsNonContracting by decide)]
  rfl

theorem lhs_edge (j : S256x1024.Idx) (q : dot_S256x2048_S2048x1024_S256x1024_1_0_0_1_n_n.contr.Idx) :
    (dot_S256x2048_S2048x1024_S256x1024_1_0_0_1_n_n.lhsIdx j q 1).val = (q ⟨0, by decide⟩).val :=
  dot_S256x2048_S2048x1024_S256x1024_1_0_0_1_n_n.lhsIdx_val_of_single rfl j q

theorem rhs_edge (j : S256x1024.Idx) (q : dot_S256x2048_S2048x1024_S256x1024_1_0_0_1_n_n.contr.Idx) :
    (dot_S256x2048_S2048x1024_S256x1024_1_0_0_1_n_n.rhsIdx j q 0).val = (q ⟨0, by decide⟩).val :=
  dot_S256x2048_S2048x1024_S256x1024_1_0_0_1_n_n.rhsIdx_val_of_single rfl j q

theorem rhs_col (j : S256x1024.Idx) (q : dot_S256x2048_S2048x1024_S256x1024_1_0_0_1_n_n.contr.Idx) :
    (dot_S256x2048_S2048x1024_S256x1024_1_0_0_1_n_n.rhsIdx j q 1).val = (j 1).val := by
  unfold DotDims.rhsIdx
  rw [dif_neg (show ¬(1 : Fin S2048x1024.rank) ∈ dot_S256x2048_S2048x1024_S256x1024_1_0_0_1_n_n.rhsBatch by decide),
    dif_pos (show (1 : Fin S2048x1024.rank) ∈ dot_S256x2048_S2048x1024_S256x1024_1_0_0_1_n_n.rhsNonContracting by decide)]
  rfl

/-- The block product into zero, at row f and column t, is the sum over the 2048 source edges of the
    left operand's row entry times the right operand's column entry. -/
theorem product_at (s : FVec Ideal S256x2048 .bf16) (w : FVec Ideal S2048x1024 .bf16) (f : Fin 256) (t : Fin 1024) :
    matmul dot_S256x2048_S2048x1024_S256x1024_1_0_0_1_n_n none s w (constant (F := Ideal) S256x1024 .f32 0x00000000#32) (ix2 f t)
      = ∑ e : Fin 2048, s (ix2 f e) * w (ix2 e t) := by
  simp only [matmul]
  rw [Ideal.matmul_constant_zero_apply,
    ← Equiv.sum_comp (ValueIdx.contrEquiv1 dot_S256x2048_S2048x1024_S256x1024_1_0_0_1_n_n 2048 rfl rfl).symm]
  refine Finset.sum_congr rfl fun k _ => ?_
  have hk := ValueIdx.contrEquiv1_symm_val dot_S256x2048_S2048x1024_S256x1024_1_0_0_1_n_n 2048 rfl rfl k
  have el : dot_S256x2048_S2048x1024_S256x1024_1_0_0_1_n_n.lhsIdx (ix2 f t)
      ((ValueIdx.contrEquiv1 dot_S256x2048_S2048x1024_S256x1024_1_0_0_1_n_n 2048 rfl rfl).symm k) = ix2 f k :=
    funext fun a => Fin.ext (by
      match a with
      | ⟨0, _⟩ => exact lhs_row _ _
      | ⟨1, _⟩ => exact (lhs_edge _ _).trans hk)
  have er : dot_S256x2048_S2048x1024_S256x1024_1_0_0_1_n_n.rhsIdx (ix2 f t)
      ((ValueIdx.contrEquiv1 dot_S256x2048_S2048x1024_S256x1024_1_0_0_1_n_n 2048 rfl rfl).symm k) = ix2 k t :=
    funext fun a => Fin.ext (by
      match a with
      | ⟨0, _⟩ => exact (rhs_edge _ _).trans hk
      | ⟨1, _⟩ => exact rhs_col _ _)
  rw [el, er]

/-! ## The two stored values -/

/-- The kept copy of the features block: row f, source edge e of the copy is the block's entry
    (0, f, e) — a reshape that drops the unit batch axis and a change of format. -/
theorem copy_at (x : Vec Ideal S1x256x2048 .f32) (f : Fin 256) (e : Fin 2048) :
    k0_pay1 (F := Ideal) x (ix2 f e) = x (ix3 (0 : Fin 1) f e) := by
  unfold k0_pay1
  refine (congrFun (shapeCast_self _ _) _).trans ?_
  exact shapeCast_1ab_ab_apply x _ f e

/-- The stored output block at (0, f, t): the product of the kept copy with the groups block at
    (f, t), divided by the count of column t. -/
theorem stored_at (s : Vec Ideal S256x2048 .bf16) (g : Vec Ideal S1x2048x1024 .f32) (o : Vec Ideal S1x1x1024 .f32)
    (f : Fin 256) (t : Fin 1024) :
    k0_pay2 (F := Ideal) s g o (ix3 (0 : Fin 1) f t)
      = Ideal.div (∑ e : Fin 2048, s (ix2 f e) * g (ix3 (0 : Fin 1) e t)) (o (ix3 (0 : Fin 1) (0 : Fin 1) t)) := by
  unfold k0_pay2
  refine (shapeCast_ab_1ab_apply _ _ (0 : Fin 1) f t).trans ?_
  refine congrArg₂ Ideal.div ?_ ?_
  · refine (product_at _ _ f t).trans ?_
    refine Finset.sum_congr rfl fun e _ => ?_
    exact congrArg (s (ix2 f e) * ·) (shapeCast_1ab_ab_apply g _ e t)
  · refine (broadcastTo_1b_ab_apply _ _ f t).trans ?_
    exact shapeCast_1ab_ab_apply o _ (0 : Fin 1) t

end Cert.KernelIdeal.BlockValue

end
-- ==== Proof.Stored.lean ====
/-
  What one run of the body leaves behind, as values of the blocks it was given.

  At the first column block of a batch the body first replaces its kept copy by the features block
  (reshaped, format changed) and then stores the output block computed from that fresh copy; at the
  other column blocks it leaves the copy alone and computes the output block from the copy it
  finds.  Each buffer is written by one store that covers it whole, so what the buffer holds
  afterwards is that store's value, and the loads that feed it read whole buffers.
-/
import proofs.«165463_j7464653160711_2_alg».proof.Proof.Gen.KernelIdeal.Frame
import Idealize.ShloMosaic.Lib.Pipeline.Value
import Idealize.ShloMosaic.Lib.Tactic

set_option maxRecDepth 16384

noncomputable section

namespace Cert.KernelIdeal.Stored

open Cert.KernelIdeal Cert.KernelIdeal.Gen Idealize.ShloMosaic Idealize.ShloMosaic.TcCoe Idealize.SL.Sem Idealize.ShloMosaic.Tactic

variable {F : FTy → Type} [FloatOps F]

theorem zero3 : (![0, 0, 0] : Fin 3 → Nat) = fun _ => 0 := funext fun a => by fin_cases a <;> rfl
theorem zero2 : (![0, 0] : Fin 2 → Nat) = fun _ => 0 := funext fun a => by fin_cases a <;> rfl

/-- Away from a batch's first column block: the output block is computed from the kept copy the body
    finds, the groups block and the counts block. -/
theorem out_later (c : Dev nD) (i : grid0.Coords) (a2 : Memref sig .tc .vmem S1x256x2048 .f32) (h2 : a2.IsWhole)
    (a3 : Memref sig .tc .vmem S1x2048x1024 .f32) (h3 : a3.IsWhole) (a4 : Memref sig .tc .vmem S1x1x1024 .f32) (h4 : a4.IsWhole)
    (a5 : Memref sig .tc .vmem S1x256x1024 .f32) (h5 : a5.IsWhole) (a6 : Memref sig .tc .vmem S256x2048 .bf16) (h6 : a6.IsWhole)
    (hc : ¬cond0_0 i) (x0 : Vec F S1x256x2048 .f32) (x1 : Vec F S1x2048x1024 .f32) (x2 : Vec F S1x1x1024 .f32) (xs0 : Vec F S256x2048 .bf16) :
    out0_B_3 c i a2 h2 a3 h3 a4 h4 a5 h5 a6 h6 hc x0 x1 x2 xs0 = k0_pay2 xs0 x1 x2 := by
  unfold out0_B_3
  rw [View.read_writes_eq_canon _ _ _ (cover0_B_3 c i a2 h2 a3 h3 a4 h4 a5 h5 a6 h6 hc x0 x1 x2 xs0)]
  unfold kernelRun0_B
  dsimp only
  rw [View.canon_unit_zero zero3]
  simp only [View.readAt_eq_ld, h3.read_unread, h4.read_unread, h6.read_unread,
    View.ld_unit_zero (S := S1x2048x1024) zero3, View.ld_unit_zero (S := S1x1x1024) zero3, View.ld_unit_zero (S := S256x2048) zero2]

/-- At a batch's first column block: the output block is computed from the copy just made of the
    features block. -/
theorem out_first (c : Dev nD) (i : grid0.Coords) (a2 : Memref sig .tc .vmem S1x256x2048 .f32) (h2 : a2.IsWhole)
    (a3 : Memref sig .tc .vmem S1x2048x1024 .f32) (h3 : a3.IsWhole) (a4 : Memref sig .tc .vmem S1x1x1024 .f32) (h4 : a4.IsWhole)
    (a5 : Memref sig .tc .vmem S1x256x1024 .f32) (h5 : a5.IsWhole) (a6 : Memref sig .tc .vmem S256x2048 .bf16) (h6 : a6.IsWhole)
    (hc : cond0_0 i) (x0 : Vec F S1x256x2048 .f32) (x1 : Vec F S1x2048x1024 .f32) (x2 : Vec F S1x1x1024 .f32) :
    out0_A_3 c i a2 h2 a3 h3 a4 h4 a5 h5 a6 h6 hc x0 x1 x2 = k0_pay2 (k0_pay1 x0) x1 x2 := by
  unfold out0_A_3
  rw [View.read_writes_eq_canon _ _ _ (cover0_A_3 c i a2 h2 a3 h3 a4 h4 a5 h5 a6 h6 hc x0 x1 x2)]
  unfold kernelRun0_A
  dsimp only
  sl_unfold_words
  rw [View.canon_unit_zero zero3, View.readCov_unit_zero (S := S256x2048) _ zero2]
  simp only [View.readAt_eq_ld, h2.read_unread, h3.read_unread, h4.read_unread,
    View.ld_unit_zero (S := S1x256x2048) zero3, View.ld_unit_zero (S := S1x2048x1024) zero3, View.ld_unit_zero (S := S1x1x1024) zero3]

/-- At a batch's first column block the kept copy becomes the copy of the features block. -/
theorem copy_first (c : Dev nD) (i : grid0.Coords) (a2 : Memref sig .tc .vmem S1x256x2048 .f32) (h2 : a2.IsWhole)
    (a3 : Memref sig .tc .vmem S1x2048x1024 .f32) (h3 : a3.IsWhole) (a4 : Memref sig .tc .vmem S1x1x1024 .f32) (h4 : a4.IsWhole)
    (a5 : Memref sig .tc .vmem S1x256x1024 .f32) (h5 : a5.IsWhole) (a6 : Memref sig .tc .vmem S256x2048 .bf16) (h6 : a6.IsWhole)
    (hc : cond0_0 i) (x0 : Vec F S1x256x2048 .f32) (x1 : Vec F S1x2048x1024 .f32) (x2 : Vec F S1x1x1024 .f32) :
    sout0_A_0 c i a2 h2 a3 h3 a4 h4 a5 h5 a6 h6 hc x0 x1 x2 = k0_pay1 x0 := by
  unfold sout0_A_0
  rw [View.read_writes_eq_canon _ _ _ (scover0_A_0 c i a2 h2 a3 h3 a4 h4 a5 h5 a6 h6 hc x0 x1 x2)]
  unfold kernelRun0_A
  dsimp only
  sl_unfold_words
  rw [View.canon_unit_zero zero2]
  simp only [View.readAt_eq_ld, h2.read_unread, View.ld_unit_zero (S := S1x256x2048) zero3]

end Cert.KernelIdeal.Stored

end
-- ==== Proof.ArrayValue.lean ====
/-
  From what each grid point stores to the whole result array.

  The grid runs over 16 batches and, inside a batch, over 4 blocks of 1024 target columns: point t
  works on batch t / 4 and on columns 1024·(t % 4) … 1024·(t % 4) + 1023.  Its features block is the
  batch's 256 × 2048 slab, its groups block the batch's 2048 source edges by those 1024 columns, its
  counts block those 1024 entries of the batch's row of occurrences, and it writes back the batch's
  256 rows by those 1024 columns of the result.

  The kept copy of the features slab is made at the batch's first column block only, and read at the
  other three.  By induction on the point it always holds the slab of the batch the point is in: it
  is refreshed exactly when t / 4 changes.  So every point stores, at row f and local column q, the
  quotient (Σ_e features[b, f, e] · groups[b, e, col]) / occurrences[b, col] with b = t / 4 and
  col = 1024·(t % 4) + q; the 64 written blocks tile the result, which therefore ends holding that
  quotient at every index.
-/
import proofs.«165463_j7464653160711_2_alg».proof.Proof.Gen.KernelIdeal.Value
import proofs.«165463_j7464653160711_2_alg».proof.Proof.Unpool
import proofs.«165463_j7464653160711_2_alg».proof.Proof.BlockValue
import proofs.«165463_j7464653160711_2_alg».proof.Proof.Stored
import Idealize.ShloMosaic.Lib.Pipeline.Value
import Idealize.ShloMosaic.Lib.StableHlo.Run
import Idealize.ShloMosaic.Lib.Tactic

set_option maxRecDepth 16384

noncomputable section

namespace Cert.KernelIdeal.ArrayValue

open Cert.KernelIdeal Cert.KernelIdeal.Gen Cert.KernelIdeal.Value
open Idealize.ShloMosaic Idealize.ShloMosaic.TcCoe Idealize.SL.Sem Idealize.ShloMosaic.ValueIdx Idealize.ShloMosaic.StableHlo
open Idealize.ShloMosaic.Pipeline (Dat)
open Cert.Unpool (quotOfSum)

variable (m : (ℓ : Loc nD τ sig) → Buf (Elt Ideal) ℓ) (ρ : Dev nD → PrngReg)

/-- The three argument arrays as the run finds them on core c. -/
abbrev feat (c : Dev nD) : S16x256x2048.Idx → EReal := m ((c : Thread nD τ).loc main_arg0)
abbrev grp (c : Dev nD) : S16x2048x4096.Idx → EReal := m ((c : Thread nD τ).loc main_arg1)
abbrev occ (c : Dev nD) : S16x4096.Idx → EReal := m ((c : Thread nD τ).loc main_arg2)

/-! ## Where each block sits -/

/-- Point t is batch t / 4 and column block t % 4: the features block follows the batch only, the
    other three follow both. -/
theorem block_index : ∀ t : Fin cfg0.N,
    win0_0.index t (0 : Fin 3) = t.val / 4 ∧ win0_0.index t (1 : Fin 3) = 0 ∧ win0_0.index t (2 : Fin 3) = 0
    ∧ win0_1.index t (0 : Fin 3) = t.val / 4 ∧ win0_1.index t (1 : Fin 3) = 0 ∧ win0_1.index t (2 : Fin 3) = t.val % 4
    ∧ win0_2.index t (0 : Fin 3) = t.val / 4 ∧ win0_2.index t (1 : Fin 3) = 0 ∧ win0_2.index t (2 : Fin 3) = t.val % 4
    ∧ win0_3.index t (0 : Fin 3) = t.val / 4 ∧ win0_3.index t (1 : Fin 3) = 0 ∧ win0_3.index t (2 : Fin 3) = t.val % 4 :=
  (by decide +kernel : ∀ t : Fin grid0.N, _)

/-- The features block of point t is the slab of batch t / 4. -/
theorem feat_block (c : Dev nD) (t : Fin cfg0.N) (b : Fin 16) (hb : b.val = t.val / 4) (f : Fin 256) (e : Fin 2048) :
    (iblk m c 0 t : Vec Ideal S1x256x2048 .f32) (ix3 (0 : Fin 1) f e) = feat m c (ix3 b f e) := by
  obtain ⟨e0, e1, e2, -⟩ := block_index t
  unfold iblk
  rw [View.read_apply]
  show V m c main_arg0 _ = _
  rw [V_main_arg0]
  refine congrArg (m ((c : Thread nD τ).loc main_arg0)) (funext fun a => Fin.ext ?_)
  match a with
  | ⟨0, _⟩ => show win0_0.index t (0 : Fin 3) * 1 + 1 * 0 = b.val; omega
  | ⟨1, _⟩ => show win0_0.index t (1 : Fin 3) * 256 + 1 * f.val = f.val; omega
  | ⟨2, _⟩ => show win0_0.index t (2 : Fin 3) * 2048 + 1 * e.val = e.val; omega

/-- The groups block of point t: batch t / 4, all source edges, columns 1024·(t % 4) + q. -/
theorem grp_block (c : Dev nD) (t : Fin cfg0.N) (b : Fin 16) (hb : b.val = t.val / 4) (e : Fin 2048) (q : Fin 1024)
    (col : Fin 4096) (hcol : col.val = t.val % 4 * 1024 + q.val) :
    (iblk m c 1 t : Vec Ideal S1x2048x1024 .f32) (ix3 (0 : Fin 1) e q) = grp m c (ix3 b e col) := by
  obtain ⟨-, -, -, e0, e1, e2, -⟩ := block_index t
  unfold iblk
  rw [View.read_apply]
  show V m c main_arg1 _ = _
  rw [V_main_arg1]
  refine congrArg (m ((c : Thread nD τ).loc main_arg1)) (funext fun a => Fin.ext ?_)
  match a with
  | ⟨0, _⟩ => show win0_1.index t (0 : Fin 3) * 1 + 1 * 0 = b.val; omega
  | ⟨1, _⟩ => show win0_1.index t (1 : Fin 3) * 2048 + 1 * e.val = e.val; omega
  | ⟨2, _⟩ => show win0_1.index t (2 : Fin 3) * 1024 + 1 * q.val = col.val; omega

/-- The array the counts window stages is occurrences with a unit axis put in the middle. -/
theorem counts_array (c : Dev nD) : (V m c main_v0 : S16x1x4096.Idx → EReal)
    = broadcastInDim S16x1x4096 ![0, 2] bcast_S16x4096_S16x1x4096_0_2 (m ((c : Thread nD τ).loc main_arg2)) := by
  dsimp only [Gen.V, Gen.hostOps0]; after_results

/-- The counts block of point t: occurrences of batch t / 4 at columns 1024·(t % 4) + q. -/
theorem counts_block (c : Dev nD) (t : Fin cfg0.N) (b : Fin 16) (hb : b.val = t.val / 4) (q : Fin 1024)
    (col : Fin 4096) (hcol : col.val = t.val % 4 * 1024 + q.val) :
    (iblk m c 2 t : Vec Ideal S1x1x1024 .f32) (ix3 (0 : Fin 1) (0 : Fin 1) q) = occ m c (ix2 b col) := by
  obtain ⟨-, -, -, -, -, -, e0, e1, e2, -⟩ := block_index t
  unfold iblk
  rw [View.read_apply]
  show (V m c main_v0 : S16x1x4096.Idx → EReal) _ = _
  rw [counts_array]
  refine broadcastInDim_apply _ bcast_S16x4096_S16x1x4096_0_2 _ _ (ix2 b col) (fun a => ?_)
  match a with
  | ⟨0, _⟩ =>
    show b.val = if (16 : Nat) = 1 then 0 else win0_2.index t (0 : Fin 3) * 1 + 1 * 0
    rw [if_neg (by decide)]; omega
  | ⟨1, _⟩ =>
    show col.val = if (4096 : Nat) = 1 then 0 else win0_2.index t (2 : Fin 3) * 1024 + 1 * q.val
    rw [if_neg (by decide)]; omega

/-! ## The kept copy -/

/-- At a batch's first column block the kept copy becomes that batch's features slab. -/
theorem copy_refreshed (c : Dev nD) (t : Fin cfg0.N) (h0 : t.val % 4 = 0) (b : Fin 16) (hb : b.val = t.val / 4)
    (f : Fin 256) (e : Fin 2048) :
    ((outsAt0 m c t.val t.isLt).2 : Vec Ideal S256x2048 .bf16) (ix2 f e) = feat m c (ix3 b f e) := by
  rw [outsAt0_A m c t h0]
  dsimp only
  refine (congrFun (Stored.copy_first (F := Ideal) c (grid0.coords t) (ms0_0 t) (hs0_0 t) (ms0_1 t) (hs0_1 t) (ms0_2 t) (hs0_2 t) (ms0_3 t) (hs0_3 t) scM0_0 (Memref.isWhole_whole _) ((hcond0_0 t).mpr h0) (iblk m c 0 t) (iblk m c 1 t) (iblk m c 2 t)) (ix2 f e)).trans ?_
  exact (BlockValue.copy_at (iblk m c 0 t) f e).trans (feat_block m c t b hb f e)

/-- After every point the kept copy is the features slab of the batch that point is in: refreshed
    when the batch changes, untouched otherwise. -/
theorem copy_kept (c : Dev nD) : ∀ (n : ℕ) (h : n < cfg0.N) (b : Fin 16), b.val = n / 4 → ∀ (f : Fin 256) (e : Fin 2048),
    ((outsAt0 m c n h).2 : Vec Ideal S256x2048 .bf16) (ix2 f e) = feat m c (ix3 b f e) := by
  intro n
  induction n with
  | zero => intro h b hb f e; exact copy_refreshed m c ⟨0, h⟩ (Nat.zero_mod 4) b hb f e
  | succ n ih =>
    intro h b hb f e
    by_cases h0 : (n + 1) % 4 = 0
    · exact copy_refreshed m c ⟨n + 1, h⟩ h0 b hb f e
    · rw [outsAt0_B m c ⟨n + 1, h⟩ h0]
      dsimp only [sout0_B_0]
      exact ih _ b (by omega) f e

/-! ## What a point stores -/

/-- The output block after point t, at row f and local column q, is the quotient of the summed
    products by the count, at batch t / 4 and column 1024·(t % 4) + q. -/
theorem out_at (c : Dev nD) (t : Fin cfg0.N) (b : Fin 16) (hb : b.val = t.val / 4) (f : Fin 256) (q : Fin 1024)
    (col : Fin 4096) (hcol : col.val = t.val % 4 * 1024 + q.val) :
    ((outsAt0 m c t.val t.isLt).1 : Vec Ideal S1x256x1024 .f32) (ix3 (0 : Fin 1) f q)
      = quotOfSum (feat m c) (grp m c) (occ m c) (ix3 b f col) := by
  have hN : t.val < 64 := lt_of_lt_of_eq t.isLt N_0
  have body : ∀ (s : Vec Ideal S256x2048 .bf16), (∀ (f : Fin 256) (e : Fin 2048), s (ix2 f e) = feat m c (ix3 b f e)) →
      k0_pay2 (F := Ideal) s (iblk m c 1 t) (iblk m c 2 t) (ix3 (0 : Fin 1) f q)
        = quotOfSum (feat m c) (grp m c) (occ m c) (ix3 b f col) := by
    intro s hs
    refine (BlockValue.stored_at s (iblk m c 1 t) (iblk m c 2 t) f q).trans ?_
    unfold quotOfSum
    refine congrArg₂ Ideal.div (Finset.sum_congr rfl fun e _ => ?_) ?_
    · exact congrArg₂ (· * ·) (hs f e) (grp_block m c t b hb e q col hcol)
    · exact counts_block m c t b hb q col hcol
  by_cases h0 : t.val % 4 = 0
  · rw [outsAt0_A m c t h0]
    dsimp only
    refine (congrFun (Stored.out_first (F := Ideal) c (grid0.coords t) (ms0_0 t) (hs0_0 t) (ms0_1 t) (hs0_1 t) (ms0_2 t) (hs0_2 t) (ms0_3 t) (hs0_3 t) scM0_0 (Memref.isWhole_whole _) ((hcond0_0 t).mpr h0) (iblk m c 0 t) (iblk m c 1 t) (iblk m c 2 t)) (ix3 (0 : Fin 1) f q)).trans ?_
    exact body (k0_pay1 (iblk m c 0 t)) fun f e => (BlockValue.copy_at (iblk m c 0 t) f e).trans (feat_block m c t b hb f e)
  · rw [outsAt0_B m c t h0]
    dsimp only
    refine (congrFun (Stored.out_later (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (iblk m c 0 t) (iblk m c 1 t) (iblk m c 2 t)
      (outsAt0 m c (t.val - 1) (Nat.lt_of_le_of_lt (Nat.sub_le _ _) t.isLt)).2) (ix3 (0 : Fin 1) f q)).trans ?_
    exact body _ fun f e => copy_kept m c (t.val - 1) _ b (by omega) f e

/-- What point t writes back is its block of the quotient array. -/
theorem flushed_eq (c : Dev nD) (t : Fin cfg0.N) :
    (dats m 0 c).flushed 3 t = ((cfg0.win 3).blk t).view.read (Elt Ideal) (quotOfSum (feat m c) (grp m c) (occ m c)) := by
  have hN : t.val < 64 := lt_of_lt_of_eq t.isLt N_0
  obtain ⟨-, -, -, -, -, -, -, -, -, e0, e1, e2⟩ := block_index t
  rw [flushed3]
  funext y
  obtain ⟨u, f, q, rfl⟩ : ∃ (u : Fin 1) (f : Fin 256) (q : Fin 1024), y = ix3 u f q := ⟨y 0, y 1, y 2, eq_ix3 y⟩
  obtain rfl : u = 0 := Subsingleton.elim _ _
  show ((outsAt0 m c t.val t.isLt).1 : Vec Ideal S1x256x1024 .f32) (ix3 (0 : Fin 1) f q)
    = quotOfSum (feat m c) (grp m c) (occ m c) (((cfg0.win 3).blk t).view.emb (ix3 (0 : Fin 1) f q))
  refine (out_at m c t ⟨t.val / 4, by omega⟩ rfl f q ⟨t.val % 4 * 1024 + q.val, by omega⟩ rfl).trans ?_
  refine congrArg (quotOfSum (feat m c) (grp m c) (occ m c)) (funext fun a => Fin.ext ?_)
  match a with
  | ⟨0, _⟩ => show t.val / 4 = win0_3.index t (0 : Fin 3) * 1 + 1 * 0; omega
  | ⟨1, _⟩ => show f.val = win0_3.index t (1 : Fin 3) * 256 + 1 * f.val; omega
  | ⟨2, _⟩ => show t.val % 4 * 1024 + q.val = win0_3.index t (2 : Fin 3) * 1024 + 1 * q.val; omega

/-! ## The blocks tile the result -/

/-- An index of the result is in point t's block iff each coordinate is in the block's range. -/
theorem mem_block (t : Fin cfg0.N) (i : S16x256x4096.Idx) :
    i ∈ ((cfg0.win 3).blk t).view.set ↔ ∀ a : Fin 3, win0_3.index t a * S1x256x1024.size a ≤ (i a).val
      ∧ (i a).val < win0_3.index t a * S1x256x1024.size a + S1x256x1024.size a := by
  show i ∈ ((View.whole main_v1).slice (win0_3.rect t)).set ↔ _
  rw [View.set_slice_whole, Rect.mem_set_unit]
  exact Iff.rfl

/-- Index (b, f, col) lies in the block of point 4·b + col / 1024. -/
theorem covered (i : S16x256x4096.Idx) :
    ∃ t : Fin cfg0.N, (cfg0.win 3).flush t = true ∧ i ∈ ((cfg0.win 3).blk t).view.set := by
  have h0 : (i 0).val < 16 := (i 0).isLt
  have h1 : (i 1).val < 256 := (i 1).isLt
  have h2 : (i 2).val < 4096 := (i 2).isLt
  have hlt : 4 * (i 0).val + (i 2).val / 1024 < cfg0.N := by rw [show cfg0.N = 64 from N_0]; omega
  refine ⟨⟨4 * (i 0).val + (i 2).val / 1024, hlt⟩, flush0_3 _, ?_⟩
  rw [mem_block]
  obtain ⟨-, -, -, -, -, -, -, -, -, e0, e1, e2⟩ := block_index ⟨4 * (i 0).val + (i 2).val / 1024, hlt⟩
  have v : (⟨4 * (i 0).val + (i 2).val / 1024, hlt⟩ : Fin cfg0.N).val = 4 * (i 0).val + (i 2).val / 1024 := rfl
  intro a
  match a with
  | ⟨0, _⟩ =>
    show win0_3.index _ (0 : Fin 3) * 1 ≤ (i 0).val ∧ (i 0).val < win0_3.index _ (0 : Fin 3) * 1 + 1
    rw [e0, v]; omega
  | ⟨1, _⟩ =>
    show win0_3.index _ (1 : Fin 3) * 256 ≤ (i 1).val ∧ (i 1).val < win0_3.index _ (1 : Fin 3) * 256 + 256
    rw [e1]; omega
  | ⟨2, _⟩ =>
    show win0_3.index _ (2 : Fin 3) * 1024 ≤ (i 2).val ∧ (i 2).val < win0_3.index _ (2 : Fin 3) * 1024 + 1024
    rw [e2, v]; omega

/-- The result array after the run: the quotient of the summed products by the count, everywhere. -/
theorem final (c : Dev nD) : (dats m 0 c).arrAt 3 cfg0.N = quotOfSum (feat m c) (grp m c) (occ m c) :=
  (dats m 0 c).arrAt_eq_of_cover 3 (quotOfSum (feat m c) (grp m c) (occ m c)) (fun t _ => flushed_eq m c t) covered

/-- The run: it ends with the result array at that quotient and the three arguments as they were. -/
theorem run : θ_run defs (onTc (τ := τ) (main (F := Ideal))) ⟨m, fun _ => 0, ρ⟩ fun r => ∀ c : Dev nD,
      r.2.mem ((c : Thread nD τ).loc main_v1) = quotOfSum (feat m c) (grp m c) (occ m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (run_blocks m ρ)

end Cert.KernelIdeal.ArrayValue

end
-- ==== Proof.Domain.lean ====
/-
  What the precondition says of the three argument arrays.

  The precondition is a conjunction of four tests, each taken over every entry of an array:
  |features| < +∞, |groups| < +∞, |occurrences| < +∞, and occurrences ≠ 0.  Over the extended
  reals |x| < +∞ says exactly that x is a real number (it excludes +∞ and −∞), so under the
  precondition every entry of features and of groups is a real and every entry of occurrences is a
  nonzero real — what the law joining the two arrangements of the sum asks for.
-/
import proofs.«165463_j7464653160711_2_alg».proof.Pre_finite_inputs
import Idealize.ShloMosaic.PureOps.Ideal
import Idealize.ShloMosaic.PureOps.Ideal.Laws
import Idealize.ShloMosaic.Lib.Affine
import Idealize.ShloMosaic.Lib.ReduceAll
import Idealize.ShloMosaic.Lib.ValueIdx

noncomputable section

namespace Cert.Domain

open Cert.Pre_finite_inputs Idealize.ShloMosaic Idealize.ShloMosaic.ValueIdx

/-- The shape with no axes has one index. -/
instance : Subsingleton S_.Idx := ⟨fun a b => funext fun d => d.elim0⟩

/-- A test bit that is 1 says its proposition holds. -/
theorem of_bit {p : Prop} [Decidable p] (h : BitVec.ofBool (decide p) = 1#1) : p := by
  by_contra hn
  rw [decide_eq_false hn] at h
  exact absurd h (by decide)

/-- |x| < +∞ over the extended reals: x is a real number. -/
theorem real_of_abs_lt_inf (x : EReal)
    (h : Ideal.cmp .olt (max x (-x)) (Ideal.ofBits .f32 0x7F800000#32) = 1#1) : ∃ r : ℝ, x = (r : EReal) := by
  have htop : Ideal.ofBits .f32 0x7F800000#32 = ⊤ := by simp [Ideal.ofBits, Ideal.ieee]
  rw [htop] at h
  have hlt : max x (-x) < ⊤ := of_bit (p := max x (-x) < ⊤) h
  have h1 : x ≠ ⊤ := by rintro rfl; simp at hlt
  have h2 : x ≠ ⊥ := by rintro rfl; simp at hlt
  exact ⟨x.toReal, (EReal.coe_toReal h1 h2).symm⟩

/-- x ≠ 0, tested against the zero pattern. -/
theorem ne_zero_of_test (x : EReal) (h : Ideal.cmp .une x (Ideal.ofBits .f32 0x00000000#32) = 1#1) : x ≠ 0 := by
  rw [Ideal.ofBits_zero_f32] at h
  exact of_bit (p := x ≠ 0) h

variable [Facts]

/-- Under the precondition: features and groups hold reals, occurrences holds nonzero reals. -/
theorem of_pre (x0 : FVec Ideal S16x256x2048 .f32) (x1 : FVec Ideal S16x2048x4096 .f32) (x2 : FVec Ideal S16x4096 .f32)
    (h : fn (F := Ideal) x0 x1 x2 = fun _ => 1#1) :
    (∀ i, ∃ r : ℝ, x0 i = (r : EReal)) ∧ (∀ i, ∃ r : ℝ, x1 i = (r : EReal))
      ∧ (∀ i, ∃ r : ℝ, r ≠ 0 ∧ x2 i = (r : EReal)) := by
  have h1 : fn (F := Ideal) x0 x1 x2 ix0 = 1#1 := congrFun h ix0
  dsimp only [fn, fn_part1] at h1
  obtain ⟨h123, h4⟩ := IntOp.andi_eq_one.1 h1
  obtain ⟨h12, h3⟩ := IntOp.andi_eq_one.1 h123
  obtain ⟨ha, hb⟩ := IntOp.andi_eq_one.1 h12
  refine ⟨fun i => real_of_abs_lt_inf _ (Host.reduce_andi_all _ _ _ _ ix0 ha i),
    fun i => real_of_abs_lt_inf _ (Host.reduce_andi_all _ _ _ _ ix0 hb i), fun i => ?_⟩
  obtain ⟨r, hr⟩ := real_of_abs_lt_inf _ (Host.reduce_andi_all _ _ _ _ ix0 h3 i)
  have hne : x2 i ≠ 0 := ne_zero_of_test _ (Host.reduce_andi_all _ _ _ _ ix0 h4 i)
  exact ⟨r, fun h0 => hne (by rw [hr, h0, EReal.coe_zero]), hr⟩

end Cert.Domain

end
-- ==== Proof.lean ====
/-
  Mesh unpooling: a tiled kernel against its one-line reference, over the extended reals.

  Both programs compute, for a batch b, a feature row f and a target column t,
      (Σ_e features[b, f, e] · groups[b, e, t]) / occurrences[b, t]
  over the 2048 source edges e.  The kernel walks a grid of 16 batches by 4 blocks of 1024 columns,
  keeps a copy of the batch's features slab that it refreshes at the batch's first column block, and
  at each point multiplies that copy with the groups block and divides the finished product by the
  counts.  The reference divides every entry of groups by its column's count first and contracts
  afterwards.

  Precondition: every entry of the three arrays is finite and no entry of occurrences is zero.  Off
  that domain the reference itself divides by zero; on it every quantity is a real number, the
  quotient by a count is the product with its reciprocal, and a real factor moves across the finite
  sum.  That is the one law joining the two sides (Proof/Unpool.lean).

  The parts: Proof/Unpool.lean states the result as one function and proves the law;
  Proof/RefUnpool.lean reads the reference at an index; Proof/BlockValue.lean and Proof/Stored.lean
  read what one run of the body stores; Proof/ArrayValue.lean carries the kept copy across the grid
  and assembles the 64 written blocks into the result array; Proof/Domain.lean reads the
  precondition.  No operation of the kernel had to be rewritten to read it over the extended reals, so
  that reading is the kernel's own text and there is nothing to show about the passage to it.
-/
import proofs.«165463_j7464653160711_2_alg».proof.Defs
import proofs.«165463_j7464653160711_2_alg».proof.Proof.Gen.Kernel
import proofs.«165463_j7464653160711_2_alg».proof.Proof.Gen.Kernel.Skeleton
import proofs.«165463_j7464653160711_2_alg».proof.Proof.Gen.Kernel.Launch
import proofs.«165463_j7464653160711_2_alg».proof.Proof.Gen.Kernel.Points
import proofs.«165463_j7464653160711_2_alg».proof.Proof.Gen.Kernel.Frame
import proofs.«165463_j7464653160711_2_alg».proof.Proof.Gen.KernelIdeal
import proofs.«165463_j7464653160711_2_alg».proof.Proof.Gen.KernelIdeal.Skeleton
import proofs.«165463_j7464653160711_2_alg».proof.Proof.Gen.KernelIdeal.Launch
import proofs.«165463_j7464653160711_2_alg».proof.Proof.Gen.KernelIdeal.Points
import proofs.«165463_j7464653160711_2_alg».proof.Proof.Gen.KernelIdeal.Frame
import proofs.«165463_j7464653160711_2_alg».proof.Proof.Gen.KernelIdeal.Value
import proofs.«165463_j7464653160711_2_alg».proof.Proof.Gen.ReferenceIdeal
import proofs.«165463_j7464653160711_2_alg».proof.Proof.Gen.ReferenceIdeal.Run
import proofs.«165463_j7464653160711_2_alg».proof.Proof.Gen.ReferenceIdeal.Read
import proofs.«165463_j7464653160711_2_alg».proof.Proof.Gen.Pre_finite_inputs
import proofs.«165463_j7464653160711_2_alg».proof.Proof.Unpool
import proofs.«165463_j7464653160711_2_alg».proof.Proof.RefUnpool
import proofs.«165463_j7464653160711_2_alg».proof.Proof.ArrayValue
import proofs.«165463_j7464653160711_2_alg».proof.Proof.Domain
import Idealize.ShloMosaic.Adequacy
import Idealize.ShloMosaic.Init

noncomputable section

namespace Cert.Proof

open Idealize.ShloMosaic Idealize.ShloMosaic.TcCoe Idealize.SL.Sem

/-- The kernel as printed runs to completion and leaves its arguments alone. -/
theorem frame_kernel : Cert.frame_Kernel := fun m ρ _ => Cert.Kernel.Gen.frame m ρ

/-- So does its reading over the extended reals. -/
theorem frame_ideal : Cert.frame_KernelIdeal := fun m ρ _ => Cert.KernelIdeal.Gen.frame m ρ

/-- The reference is four host operations in a row; its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- Nothing was rewritten on the way to the idealized kernel. -/
theorem preserves : Cert.preserves_Kernel_KernelIdeal := trivial

/-- Both runs end with the result array at the quotient of the summed products by the count: the
    kernel computes it in that arrangement, the reference with every entry of groups divided first,
    and under the precondition the two arrangements are one array. -/
theorem algebraic : Cert.algebraic_KernelIdeal_ReferenceIdeal := by
  intro m ρ m' ρ' hpre hagree
  refine ⟨fun c => Cert.Unpool.quotOfSum (Cert.KernelIdeal.ArrayValue.feat m c) (Cert.KernelIdeal.ArrayValue.grp m c)
    (Cert.KernelIdeal.ArrayValue.occ m c), Cert.KernelIdeal.ArrayValue.run m ρ, ?_⟩
  refine (θ_run Cert.ReferenceIdeal.defs _ _).mono (fun _ h c => ⟨(h c).1.trans ?_, (h c).2⟩)
    (Cert.ReferenceIdeal.Value.run (F := Ideal) m' ρ')
  obtain ⟨hf, hg, ho⟩ := Cert.Domain.of_pre _ _ _ (hpre c)
  refine ((Cert.ReferenceIdeal.Read.val_main_v3_eq _ _ _).trans (Cert.RefUnpool.ref_eq _ _ _)).trans ?_
  rw [(hagree c).1, (hagree c).2.1, (hagree c).2.2]
  exact (Cert.Unpool.quotOfSum_eq_sumOfQuot _ _ _ hf hg ho).symm

theorem claim : Cert.Claim := ⟨Cert.Kernel.Gen.facts, Cert.KernelIdeal.Gen.facts, Cert.ReferenceIdeal.Gen.facts, Cert.Pre_finite_inputs.Gen.facts,
  frame_kernel, frame_ideal, frame_reference, preserves, algebraic⟩

end Cert.Proof

end
